-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x8192 : Shape := ⟨2, ![16384, 8192]⟩
abbrev S32x8192 : Shape := ⟨2, ![32, 8192]⟩
abbrev S_ : Shape := ⟨0, ![]⟩

class Facts : Prop where
  bcast_S_S16384x8192 : S_.BroadcastsInDim S16384x8192 (![] : Fin 0 → Fin S16384x8192.rank)
  reducesTo_S16384x8192_S_d0_1 : S16384x8192.ReducesTo [0, 1] S_
  h_S_ : 0 < S_.numel
  bcast_S_S32x8192 : S_.BroadcastsInDim S32x8192 (![] : Fin 0 → Fin S32x8192.rank)
  reducesTo_S32x8192_S_d0_1 : S32x8192.ReducesTo [0, 1] S_

variable [Facts]

def fn {F : FTy → Type} [FloatOps F] (main_arg0 : FVec F S16384x8192 .f32) (main_arg1 : FVec F S32x8192 .f32) : IVec S_ 1 :=
  let main_v0 : FVec F S16384x8192 .f32 := Host.absf main_arg0
  let main_cst : FVec F S_ .f32 := constant S_ .f32 0x7F800000#32
  let main_v1 : FVec F S16384x8192 .f32 := broadcastInDim S16384x8192 ![] bcast_S_S16384x8192 main_cst
  let main_v2 : IVec S16384x8192 1 := cmpf .olt main_v0 main_v1
  let main_c : IVec S_ 1 := constantI S_ 1 1#1
  let main_v3 : IVec S_ 1 := (fun x v => Host.reduce IntOp.andi x v reducesTo_S16384x8192_S_d0_1 h_S_) main_v2 main_c
  let main_v4 : FVec F S32x8192 .f32 := Host.absf main_arg1
  let main_cst_0 : FVec F S_ .f32 := constant S_ .f32 0x7F800000#32
  let main_v5 : FVec F S32x8192 .f32 := broadcastInDim S32x8192 ![] bcast_S_S32x8192 main_cst_0
  let main_v6 : IVec S32x8192 1 := cmpf .olt main_v4 main_v5
  let main_c_1 : IVec S_ 1 := constantI S_ 1 1#1
  let main_v7 : IVec S_ 1 := (fun x v => Host.reduce IntOp.andi x v reducesTo_S32x8192_S_d0_1 h_S_) main_v6 main_c_1
  let main_v8 : IVec S_ 1 := andi main_v3 main_v7
  main_v8
-- ==== Kernel.lean ====
abbrev S16384x8192 : Shape := ⟨2, ![16384, 8192]⟩
abbrev S32x8192 : Shape := ⟨2, ![32, 8192]⟩
abbrev S_ : Shape := ⟨0, ![]⟩
abbrev S8192x32 : Shape := ⟨2, ![8192, 32]⟩
abbrev S16384x32 : Shape := ⟨2, ![16384, 32]⟩
abbrev S256x8192 : Shape := ⟨2, ![256, 8192]⟩
abbrev S256x32 : Shape := ⟨2, ![256, 32]⟩

abbrev nBuf : Space → Nat
  | .hbm => 13
  | .vmem => 5
  | .smem => 0
  | _ => 0

abbrev bufTy : (tb : Table) → Fin (tcTables nBuf tb) → BufTy
  | .hbm, ⟨0, _⟩ => ⟨S16384x8192, .f32⟩
  | .hbm, ⟨1, _⟩ => ⟨S32x8192, .f32⟩
  | .hbm, ⟨2, _⟩ => ⟨S32x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S32x8192, .f32⟩
  | .hbm, ⟨8, _⟩ => ⟨S32x8192, .bf16⟩
  | .hbm, ⟨9, _⟩ => ⟨S8192x32, .bf16⟩
  | .hbm, ⟨10, _⟩ => ⟨S16384x32, .f32⟩
  | .hbm, ⟨11, _⟩ => ⟨S16384x32, .f32⟩
  | .hbm, ⟨12, _⟩ => ⟨S16384x32, .f32⟩
  | .local _ .vmem, ⟨0, _⟩ => ⟨S256x8192, .f32⟩
  | .local _ .vmem, ⟨1, _⟩ => ⟨S256x8192, .f32⟩
  | .local _ .vmem, ⟨2, _⟩ => ⟨S8192x32, .bf16⟩
  | .local _ .vmem, ⟨3, _⟩ => ⟨S256x32, .f32⟩
  | .local _ .vmem, ⟨4, _⟩ => ⟨S256x32, .f32⟩
  | _, _ => ⟨S16384x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S32x8192_S_d0_1 : S32x8192.ReducesTo [0, 1] S_
  h_S_ : 0 < S_.numel
  bitsLt_bf16_f32 : FTy.bits .bf16 < FTy.bits .f32
  transposes_S32x8192_S8192x32_1_0 : S32x8192.Transposes [1, 0] S8192x32
  inb_S256x8192_S256x8192_0_0 : ∀ a, (![0, 0] : Fin 2 → Nat) a + S256x8192.size a ≤ S256x8192.size a
  h_S256x8192 : 0 < S256x8192.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  inb_S256x32_S256x32_0_0 : ∀ a, (![0, 0] : Fin 2 → Nat) a + S256x32.size a ≤ S256x32.size a
  h_S256x32 : 0 < S256x32.numel
  bcast_S_S16384x32 : S_.BroadcastsInDim S16384x32 (![] : Fin 0 → Fin S16384x32.rank)
  dot_S256x8192_S8192x32_S256x32_1_0_0_1_n_n_wf : DotDims.WF S256x8192 S8192x32 S256x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S16384x8192.size a
  hwx0_0 : ∀ i : grid0.Coords, EltTy.bits .f32 = 32 ∨ (Rect.block (s := S16384x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x32.size a ≤ S8192x32.size a
  hwx0_1 : ∀ i : grid0.Coords, EltTy.bits .bf16 = 32 ∨ (Rect.block (s := S8192x32) S8192x32.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S16384x32.size a
  hwx0_2 : ∀ i : grid0.Coords, EltTy.bits .f32 = 32 ∨ (Rect.block (s := S16384x32) S256x32.size (cc0_transform_2 i) (hinb0_2 i)).WholeWords (EltTy.packing .f32)

variable [Facts₀]

def dot_S256x8192_S8192x32_S256x32_1_0_0_1_n_n : DotDims S256x8192 S8192x32 S256x32 where
  lhsContracting := [1]
  rhsContracting := [0]
  lhsNonContracting := [0]
  rhsNonContracting := [1]
  lhsBatch := []
  rhsBatch := []
  wf := dot_S256x8192_S8192x32_S256x32_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S256x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x8192 : Shape := ⟨2, ![16384, 8192]⟩
abbrev S32x8192 : Shape := ⟨2, ![32, 8192]⟩
abbrev S_ : Shape := ⟨0, ![]⟩
abbrev S8192x32 : Shape := ⟨2, ![8192, 32]⟩
abbrev S16384x32 : Shape := ⟨2, ![16384, 32]⟩

abbrev nBuf : Space → Nat
  | .hbm => 22
  | .vmem => 0
  | .smem => 0
  | _ => 0

abbrev bufTy : (tb : Table) → Fin (tcTables nBuf tb) → BufTy
  | .hbm, ⟨0, _⟩ => ⟨S16384x8192, .f32⟩
  | .hbm, ⟨1, _⟩ => ⟨S32x8192, .f32⟩
  | .hbm, ⟨2, _⟩ => ⟨S32x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32x8192, .f32⟩
  | .hbm, ⟨11, _⟩ => ⟨S32x8192, .f32⟩
  | .hbm, ⟨12, _⟩ => ⟨S_, .f32⟩
  | .hbm, ⟨13, _⟩ => ⟨S32x8192, .f32⟩
  | .hbm, ⟨14, _⟩ => ⟨S32x8192, .f32⟩
  | .hbm, ⟨15, _⟩ => ⟨S32x8192, .f32⟩
  | .hbm, ⟨16, _⟩ => ⟨S32x8192, .f32⟩
  | .hbm, ⟨17, _⟩ => ⟨S32x8192, .f32⟩
  | .hbm, ⟨18, _⟩ => ⟨S32x8192, .f32⟩
  | .hbm, ⟨19, _⟩ => ⟨S32x8192, .f32⟩
  | .hbm, ⟨20, _⟩ => ⟨S8192x32, .f32⟩
  | .hbm, ⟨21, _⟩ => ⟨S16384x32, .f32⟩
  | _, _ => ⟨S16384x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_cst_2 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩

abbrev nD : Nat := 1
abbrev τ : Topo := Topo.v7x

variable {F : FTy → Type} [FloatOps F]

class Facts₀ : Prop where
  reducesTo_S32x8192_S_d0_1 : S32x8192.ReducesTo [0, 1] S_
  h_S_ : 0 < S_.numel
  bcast_S_S32x8192 : S_.BroadcastsInDim S32x8192 (![] : Fin 0 → Fin S32x8192.rank)
  transposes_S32x8192_S8192x32_1_0 : S32x8192.Transposes [1, 0] S8192x32
  dot_S16384x8192_S8192x32_S16384x32_1_0_0_1_n_n_wf : DotDims.WF S16384x8192 S8192x32 S16384x32 [1] [0] [0] [1] [] []

variable [Facts₀]

def dot_S16384x8192_S8192x32_S16384x32_1_0_0_1_n_n : DotDims S16384x8192 S8192x32 S16384x32 where
  lhsContracting := [1]
  rhsContracting := [0]
  lhsNonContracting := [0]
  rhsNonContracting := [1]
  lhsBatch := []
  rhsBatch := []
  wf := dot_S16384x8192_S8192x32_S16384x32_1_0_0_1_n_n_wf

class Facts : Prop extends Facts₀ where

variable [Facts]
-- ==== Proof.LibERealFinite.lean ====
/-
  Extended reals that are reals.

  Three small facts used when a claim about extended reals holds only for finite inputs: the coercion from the
  reals commutes with finite sums; subtracting a real and adding it back changes no extended real, the two
  infinities included; and an extended real whose absolute value lies strictly below the word of +infinity (the test
  a finiteness precondition applies to every entry) is a real.
-/
import Idealize.ShloMosaic.PureOps.Ideal.Laws

noncomputable section

namespace Idealize.ShloMosaic.ERealFinite

open Idealize.ShloMosaic

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Subtracting a real and adding it back is the identity on every extended real, the infinities included. -/
theorem sub_add_cancel_coe (a : EReal) (c : ℝ) : a - (c : EReal) + (c : EReal) = a := by
  induction a using EReal.rec with
  | bot => simp
  | coe a => rw [← EReal.coe_sub, ← EReal.coe_add]; congr 1; ring
  | top => simp

/-- An extended real whose absolute value compares strictly below the single-precision word of +infinity is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

end Idealize.ShloMosaic.ERealFinite

end
-- ==== Proof.Finite.lean ====
/-
  What the precondition says: every entry of x and of w is a real number.

  The precondition compares the absolute value of every entry with the word of +infinity, takes the
  conjunction over each array and the conjunction of the two.  An extended real whose absolute value is
  strictly below the top element is neither infinity, hence a real.
-/
import proofs.«110860_j31018253812447_2_alg».proof.Pre_finite_inputs
import Idealize.ShloMosaic.Lib.ReduceAll
import Idealize.ShloMosaic.Lib.ValueIdx
import Idealize.ShloMosaic.PureOps.Ideal.Laws
import proofs.«110860_j31018253812447_2_alg».proof.Proof.LibERealFinite

noncomputable section

namespace Cert.SignProduct

open Idealize.ShloMosaic Idealize.ShloMosaic.ERealFinite

/-- The rank-zero shape has one index. -/
instance subsingleton_scalar_idx : Subsingleton (Cert.Pre_finite_inputs.S_).Idx := ⟨fun _ _ => funext fun d => d.elim0⟩

/-- Under the precondition every entry of both arrays is a real. -/
theorem finite_of_pre [Cert.Pre_finite_inputs.Facts]
    (x : FVec Ideal Cert.Pre_finite_inputs.S16384x8192 .f32) (w : FVec Ideal Cert.Pre_finite_inputs.S32x8192 .f32)
    (h : Cert.Pre_finite_inputs.fn (F := Ideal) x w = fun _ => 1#1) :
    (∀ i, ∃ r : ℝ, x i = (r : EReal)) ∧ (∀ j, ∃ r : ℝ, w j = (r : EReal)) := by
  have h0 := congrFun h ValueIdx.ix0
  dsimp only [Cert.Pre_finite_inputs.fn] at h0
  obtain ⟨h1, h2⟩ := IntOp.andi_eq_one.1 h0
  refine ⟨fun i => ?_, fun j => ?_⟩
  · exact real_of_abs_lt _ (Host.reduce_andi_all _ _ _ _ _ h1 i)
  · exact real_of_abs_lt _ (Host.reduce_andi_all _ _ _ _ _ h2 j)

end Cert.SignProduct

end
-- ==== Proof.Spec.lean ====
/-
  The function both programs compute, and the real arithmetic that joins their two spellings.

  With x of shape [16384, 8192] and w of shape [32, 8192], entry (r, o) of the result is

      (sum over k < 8192 of x (r, k) * sign (w (o, k))) * mean |w|,        mean |w| = (0 + sum of all |w (o, k)|) / 262144.

  One program computes exactly this: a product of x with the transposed sign matrix, scaled afterwards.
  The other multiplies x with the matrix whose entry (o, k) is ((mean |w| * sign (w (o, k))) - c (o, k)) + c (o, k), with
  c the entries of w clamped to [-1, 1].  Adding back a finite number that was subtracted changes nothing on
  the extended reals, and a common finite factor moves out of a finite sum of finite terms; both steps need
  finiteness, which is why the laws below are stated for real entries.
-/
import Idealize.ShloMosaic.Lib.ValueIdx
import Idealize.ShloMosaic.PureOps.Ideal.Laws
import proofs.«110860_j31018253812447_2_alg».proof.Proof.LibERealFinite

noncomputable section

namespace Cert.SignProduct

open Idealize.ShloMosaic Idealize.ShloMosaic.ValueIdx Idealize.ShloMosaic.ERealFinite

/-- Index types of the three arrays. -/
abbrev XIdx := (⟨2, ![16384, 8192]⟩ : Shape).Idx
abbrev WIdx := (⟨2, ![32, 8192]⟩ : Shape).Idx
abbrev OIdx := (⟨2, ![16384, 32]⟩ : Shape).Idx

/-- The mean of the absolute values of w's 262144 entries, spelt as both programs compute it: the sum
    started from the zero word, divided by the word of 262144. -/
def meanAbs (w : WIdx → EReal) : EReal :=
  Ideal.div (Ideal.ofBits .f32 0x00000000#32 + ∑ j : WIdx, max (w j) (-(w j))) (Ideal.ofBits .f32 0x48800000#32)

/-- The common result: row r of x against the signs of row o of w, times the mean absolute value of w. -/
def G (x : XIdx → EReal) (w : WIdx → EReal) : OIdx → EReal :=
  fun i => (∑ k : Fin 8192, x (ix2 (i 0) k) * Ideal.sign (w (ix2 (i 1) k))) * meanAbs w

/-- G at an index given by its two coordinates. -/
theorem G_apply (x : XIdx → EReal) (w : WIdx → EReal) (p : Fin 16384) (q : Fin 32) :
    G x w (ix2 p q) = (∑ k : Fin 8192, x (ix2 p k) * Ideal.sign (w (ix2 q k))) * meanAbs w := rfl

/-! ## Real arithmetic on the extended reals -/

/-- The words of 262144, 1 and -1. -/
theorem ofBits_262144 : Ideal.ofBits .f32 0x48800000#32 = ((262144 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul]; norm_num

/-- The sign of a real is a real. -/
theorem sign_coe_real (r : ℝ) : Ideal.sign (r : EReal) = ((SignType.sign r : ℝ) : EReal) := rfl

/-- Clamping a real to [-1, 1] gives a real. -/
theorem clamp_coe (r : ℝ) :
    min (Ideal.ofBits .f32 0x3F800000#32) (max (Ideal.ofBits .f32 0xBF800000#32) (r : EReal)) = ((min 1 (max (-1) r) : ℝ) : EReal) := by
  have hm : Monotone ((↑) : ℝ → EReal) := EReal.coe_strictMono.monotone
  rw [ofBits_one, ofBits_neg_one, ← hm.map_max, ← hm.map_min]

/-- The mean absolute value of an array of reals is a real. -/
theorem meanAbs_coe (r : WIdx → ℝ) : meanAbs (fun j => (r j : EReal)) = (((∑ j : WIdx, |r j|) * (1 / 262144) : ℝ) : EReal) := by
  unfold meanAbs
  rw [Ideal.ofBits_zero_f32, ofBits_262144, Ideal.div_coe (by norm_num : (262144 : ℝ) ≠ 0), zero_add]
  have habs : ∀ j : WIdx, max ((r j : ℝ) : EReal) (-((r j : ℝ) : EReal)) = ((|r j| : ℝ) : EReal) := fun j => by
    have hm : Monotone ((↑) : ℝ → EReal) := EReal.coe_strictMono.monotone
    rw [← EReal.coe_neg, ← hm.map_max]; rfl
  simp only [habs]
  rw [← coe_sum, ← EReal.coe_mul]

/-- THE LAW.  For real a, b, c and a real factor s, the sum of a k * ((s * b k - c k) + c k) is (the sum of a k * b k) * s. -/
theorem sum_scaled {K : Nat} (a b c : Fin K → ℝ) (s : ℝ) :
    ∑ k : Fin K, (a k : EReal) * (((s : EReal) * (b k : EReal) - (c k : EReal)) + (c k : EReal))
      = (∑ k : Fin K, (a k : EReal) * (b k : EReal)) * (s : EReal) := by
  simp only [sub_add_cancel_coe, ← EReal.coe_mul]
  rw [← coe_sum, ← coe_sum, ← EReal.coe_mul, Finset.sum_mul]
  congr 1
  exact Finset.sum_congr rfl fun k _ => by ring

end Cert.SignProduct

end
-- ==== Proof.RefValue.lean ====
/-
  The second program's result is the common function G, for real inputs.

  Its last operation is a product of x with a [8192, 32] matrix; entry (k, o) of that matrix is entry (o, k) of the
  [32, 8192] matrix ((mean |w| * sign w) - c) + c, where c is w clamped to [-1, 1].  Read at an index the result is
  the sum over k of x (r, k) times that entry, and for real x and w the law of the specification module turns
  the sum into (the sum of x (r, k) * sign (w (o, k))) * mean |w|.
-/
import proofs.«110860_j31018253812447_2_alg».proof.Proof.Gen.ReferenceIdeal.Read
import proofs.«110860_j31018253812447_2_alg».proof.Proof.Spec

noncomputable section

namespace Cert.SignProduct.Reference

open Cert.ReferenceIdeal Cert.ReferenceIdeal.Read Idealize.ShloMosaic Idealize.ShloMosaic.ValueIdx Cert.SignProduct

/-- The scalar the program broadcasts is the mean absolute value of w. -/
theorem scale_eq (w : FVec Ideal S32x8192 .f32) (i : S_.Idx) : val_main_v2 (F := Ideal) w i = meanAbs w := by
  rw [val_main_v2_apply, val_main_v1_apply]
  rfl

/-- Entry (o, k) of the matrix before its transposition. -/
theorem weight_entry (w : FVec Ideal S32x8192 .f32) (j : S32x8192.Idx) :
    val_main_v8 (F := Ideal) w j
      = (meanAbs w * Ideal.sign (w j)
          - min (Ideal.ofBits .f32 0x3F800000#32) (max (Ideal.ofBits .f32 0xBF800000#32) (w j)))
        + min (Ideal.ofBits .f32 0x3F800000#32) (max (Ideal.ofBits .f32 0xBF800000#32) (w j)) := by
  rw [val_main_v8_apply, val_main_v7_apply, val_main_v6_apply, val_main_v5_apply, scale_eq, val_main_v4_apply,
    val_main_v3_apply, val_main_call0_v4_apply, val_main_call0_v2_apply, val_main_call0_v1_apply]
  rfl

/-- The left operand is read at (p, k). -/
theorem lidx_eq (p : Fin 16384) (q : Fin 32) (k : Fin 8192) : lidx_main_v10 (ix2 p q) k = ix2 p k :=
  funext fun a => by match a with | ⟨0, _⟩ => rfl | ⟨1, _⟩ => rfl

/-- The transposed right operand is read at (q, k). -/
theorem ridx_eq (p : Fin 16384) (q : Fin 32) (k : Fin 8192) : idx_main_v9 (ridx_main_v10 (ix2 p q) k) = ix2 q k :=
  funext fun a => by match a with | ⟨0, _⟩ => rfl | ⟨1, _⟩ => rfl

/-- For real inputs the second program's result is G. -/
theorem result_eq (x : FVec Ideal S16384x8192 .f32) (w : FVec Ideal S32x8192 .f32)
    (hx : ∀ i, ∃ r : ℝ, x i = (r : EReal)) (hw : ∀ j, ∃ r : ℝ, w j = (r : EReal)) :
    val_main_v10 (F := Ideal) x w = G x w := by
  funext i
  obtain ⟨p, q, rfl⟩ : ∃ (p : Fin 16384) (q : Fin 32), i = ix2 p q := ⟨i 0, i 1, eq_ix2 i⟩
  rw [val_main_v10_apply, G_apply]
  have hterm : ∀ k : Fin 8192, x (lidx_main_v10 (ix2 p q) k) * val_main_v9 (F := Ideal) w (ridx_main_v10 (ix2 p q) k)
      = x (ix2 p k) * ((meanAbs w * Ideal.sign (w (ix2 q k))
          - min (Ideal.ofBits .f32 0x3F800000#32) (max (Ideal.ofBits .f32 0xBF800000#32) (w (ix2 q k))))
        + min (Ideal.ofBits .f32 0x3F800000#32) (max (Ideal.ofBits .f32 0xBF800000#32) (w (ix2 q k)))) := fun k => by
    rw [val_main_v9_apply, ridx_eq, weight_entry, lidx_eq]
  rw [Finset.sum_congr rfl fun k _ => hterm k]
  choose a ha using hx
  choose b hb using hw
  obtain rfl : x = fun i => ((a i : ℝ) : EReal) := funext ha
  obtain rfl : w = fun j => ((b j : ℝ) : EReal) := funext hb
  rw [meanAbs_coe]
  simp only [clamp_coe, sign_coe_real]
  exact sum_scaled (fun k => a (ix2 p k)) (fun k => (SignType.sign (b (ix2 q k)) : ℝ))
    (fun k => min 1 (max (-1) (b (ix2 q k)))) _

end Cert.SignProduct.Reference

end
-- ==== Proof.LibDotRows.lean ====
/-
  A plain two-dimensional contraction read at an index.

  For dimension numbers that contract the left operand's columns with the right operand's rows and have
  no batch axis — an M×K array times a K×N array — the sum over the contraction index that a matrix
  product denotes on the extended reals is the familiar row-by-column sum: entry (r, c) of the product is
  the sum over k < K of left (r, k) · right (k, c).  Both the kernel-side product into a zero accumulator
  and the host-side product follow.
-/
import Idealize.ShloMosaic.Lib.ValueIdx
import Idealize.ShloMosaic.PureOps.Ideal.Laws

noncomputable section

namespace Idealize.ShloMosaic.DotRows

open Idealize.ShloMosaic Idealize.ShloMosaic.ValueIdx

/-- The contraction sum of a plain M×K by K×N product at entry `j` is the sum over `k < K` of the left
    operand at (row of `j`, `k`) times the right operand at (`k`, column of `j`). -/
theorem contr_sum {M K N : Nat} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (lhs : (⟨2, ![M, K]⟩ : Shape).Idx → EReal) (rhs : (⟨2, ![K, N]⟩ : Shape).Idx → EReal)
    (j : (⟨2, ![M, N]⟩ : Shape).Idx) :
    ∑ k : d.contr.Idx, lhs (d.lhsIdx j k) * rhs (d.rhsIdx j k)
      = ∑ k : Fin K, lhs (ix2 (j 0) k) * rhs (ix2 k (j 1)) := by
  obtain ⟨lc, rc, ln, rn, lb, rb, wf⟩ := d
  dsimp only at hlc hrc hln hrn hlb hrb
  subst hlc hrc hln hrn hlb hrb
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have el : (DotDims.mk [1] [0] [0] [1] [] [] wf).lhsIdx j ((contrEquiv1 (DotDims.mk [1] [0] [0] [1] [] [] wf) K rfl rfl).symm k)
      = ix2 (j 0) k := funext fun a => Fin.ext (by
    match a with
    | ⟨0, _⟩ =>
      show ((DotDims.mk [1] [0] [0] [1] [] [] wf).lhsIdx j _ 0).val = (j 0).val
      unfold DotDims.lhsIdx
      rw [dif_neg (show ¬ (0 : Fin 2) ∈ ([] : List (Fin 2)) from List.not_mem_nil),
        dif_pos (show (0 : Fin 2) ∈ ([0] : List (Fin 2)) from List.mem_singleton.mpr rfl)]
      rfl
    | ⟨1, _⟩ => exact ((DotDims.mk [1] [0] [0] [1] [] [] wf).lhsIdx_val_of_single rfl j _).trans hk)
  have er : (DotDims.mk [1] [0] [0] [1] [] [] wf).rhsIdx j ((contrEquiv1 (DotDims.mk [1] [0] [0] [1] [] [] wf) K rfl rfl).symm k)
      = ix2 k (j 1) := funext fun a => Fin.ext (by
    match a with
    | ⟨0, _⟩ => exact ((DotDims.mk [1] [0] [0] [1] [] [] wf).rhsIdx_val_of_single rfl j _).trans hk
    | ⟨1, _⟩ =>
      show ((DotDims.mk [1] [0] [0] [1] [] [] wf).rhsIdx j _ 1).val = (j 1).val
      unfold DotDims.rhsIdx
      rw [dif_neg (show ¬ (1 : Fin 2) ∈ ([] : List (Fin 2)) from List.not_mem_nil),
        dif_pos (show (1 : Fin 2) ∈ ([1] : List (Fin 2)) from List.mem_singleton.mpr rfl)]
      rfl)
  exact congrArg₂ (fun a b => lhs a * rhs b) el er

/-- A kernel-side matrix product into the zero accumulator, at the ideal values, is the row-by-column sum. -/
theorem matmul_zero_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    matmul d prec lhs rhs (constant ⟨2, ![M, N]⟩ .f32 0x00000000#32) j
      = ∑ k : Fin K, lhs (ix2 (j 0) k) * rhs (ix2 k (j 1)) :=
  (Ideal.matmul_constant_zero_apply d prec lhs rhs j).trans (contr_sum d hlc hrc hln hrn hlb hrb lhs rhs j)

/-- A host-side matrix product, at the ideal values, is the same row-by-column sum. -/
theorem dotGeneral_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (j : (⟨2, ![M, N]⟩ : Shape).Idx) :
    Host.dotGeneral d prec lhs rhs j = ∑ k : Fin K, lhs (ix2 (j 0) k) * rhs (ix2 k (j 1)) := by
  simp only [Host.dotGeneral]
  exact (Ideal.dotGeneral_apply d prec _ lhs rhs j).trans (contr_sum d hlc hrc hln hrn hlb hrb lhs rhs j)

/-- The same two facts at an index given by its two coordinates. -/
theorem matmul_zero_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) :=
  matmul_zero_apply d hlc hrc hln hrn hlb hrb prec lhs rhs (ix2 p q)

theorem dotGeneral_ix2 {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) :=
  dotGeneral_apply d hlc hrc hln hrn hlb hrb prec lhs rhs (ix2 p q)

end Idealize.ShloMosaic.DotRows

end
-- ==== Proof.KernelBlock.lean ====
/-
  The first program's region: the product of x with the transposed sign matrix, block by block.

  The grid has 64 points.  Point t reads rows 256 t ... 256 t + 255 of the left array (all 8192 columns) and the
  whole right array, multiplies them into a zero accumulator, and writes rows 256 t ... 256 t + 255 of the
  [16384, 32] result.  Entry (p, q) of a block's product is the sum over k of left (p, k) * right (k, q), so each
  block written back is the corresponding block of ONE whole-array function, the rows-by-columns product of the
  two arrays as the region finds them; the 64 blocks tile the result, which therefore ends holding that product.
-/
import proofs.«110860_j31018253812447_2_alg».proof.Proof.Gen.KernelIdeal.Frame
import proofs.«110860_j31018253812447_2_alg».proof.Proof.LibDotRows
import Idealize.ShloMosaic.Lib.Pipeline.Value
import Idealize.ShloMosaic.Lib.ValueIdx

noncomputable section

namespace Cert.SignProduct.Kernel

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The rows-by-columns product of a [16384, 8192] array with a [8192, 32] array. -/
def rowsByCols (A : S16384x8192.Idx → EReal) (B : S8192x32.Idx → EReal) : S16384x32.Idx → EReal :=
  fun i => ∑ k : Fin 8192, A (ix2 (i 0) k) * B (ix2 k (i 1))

theorem zero_offsets : (![0, 0] : Fin 2 → Nat) = fun _ => 0 := funext fun a => by fin_cases a <;> rfl

/-- One block's product at entry (p, q): the row p of the left block against the column q of the right block.
    The narrowing of the left block's format is the identity on extended reals, and so is the cast of the right block
    to its own shape. -/
theorem payload_apply (x0 : Vec Ideal S256x8192 .f32) (x1 : Vec Ideal S8192x32 .bf16) (j : S256x32.Idx) :
    k0_pay1 (F := Ideal) x0 x1 j = ∑ k : Fin 8192, x0 (ix2 (j 0) k) * x1 (ix2 k (j 1)) := by
  unfold k0_pay1
  rw [shapeCast_self]
  exact DotRows.matmul_zero_apply dot_S256x8192_S8192x32_S256x32_1_0_0_1_n_n rfl rfl rfl rfl rfl rfl none
    (truncf .bf16 x0 bitsLt_bf16_f32) x1 j

/-- The three windows' block indices at every point: the left array's block row is the result's, its block column 0;
    the right array is one block; the result's block column is 0 and its block row the point's number. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point t writes back is block t of the rows-by-columns product of the two arrays as the region finds them. -/
theorem flushed_eq (c : Dev nD) (t : Fin cfg0.N) :
    (dats m 0 c).flushed 2 t
      = ((cfg0.win 2).blk t).view.read (Elt Ideal) (rowsByCols (V m c main_arg0) (V m c main_v5)) := by
  show (cfg0.win 2).cut (grid0.coords t) ((dats m 0 c).after 2 t) = _
  rw [after0_2]
  unfold out0_2
  rw [View.canon_unit_zero zero_offsets]
  simp only [View.ld_unit_zero (S := S256x8192) zero_offsets, View.ld_unit_zero (S := S8192x32) zero_offsets]
  obtain ⟨e0, e1, e2, e3, e4, e5⟩ := block_indices t
  funext j
  show k0_pay1 (F := Ideal) (iblk m c 0 t) (iblk m c 1 t) j
    = rowsByCols (V m c main_arg0) (V m c main_v5) (((cfg0.win 2).blk t).view.emb j)
  refine (payload_apply (iblk m c 0 t) (iblk m c 1 t) j).trans ?_
  unfold rowsByCols
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 256 + 1 * (j 0).val = win0_2.index t (0 : Fin 2) * 256 + 1 * (j 0).val; omega
    | ⟨1, _⟩ => show win0_0.index t (1 : Fin 2) * 8192 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 8192 + 1 * k.val = k.val; omega
    | ⟨1, _⟩ => show win0_1.index t (1 : Fin 2) * 32 + 1 * (j 1).val = win0_2.index t (1 : Fin 2) * 32 + 1 * (j 1).val; omega
  exact congrArg₂ (fun a b : EReal => a * b)
    (congrArg (V m c main_arg0 : S16384x8192.Idx → EReal) h0) (congrArg (V m c main_v5 : S8192x32.Idx → EReal) h1)

/-- An index of the result is in point t's block iff each coordinate is in the block's range on its axis. -/
theorem mem_block (t : Fin cfg0.N) (i : S16384x32.Idx) :
    i ∈ ((cfg0.win 2).blk t).view.set ↔ ∀ a : Fin 2, win0_2.index t a * S256x32.size a ≤ (i a).val ∧ (i a).val < win0_2.index t a * S256x32.size a + S256x32.size a := by
  show i ∈ ((View.whole main_v6).slice (win0_2.rect t)).set ↔ _
  rw [View.set_slice_whole, Rect.mem_set_unit]
  exact Iff.rfl

/-- Every index of the result is in the block of the point numbered by its row divided by 256. -/
theorem covered (i : S16384x32.Idx) :
    ∃ t : Fin cfg0.N, (cfg0.win 2).flush t = true ∧ i ∈ ((cfg0.win 2).blk t).view.set := by
  have hi0 : (i 0).val < 16384 := (i 0).isLt
  have hi1 : (i 1).val < 32 := (i 1).isLt
  obtain ⟨t, ht⟩ : ∃ t : Fin cfg0.N, t.val = (i 0).val / 256 :=
    ⟨⟨(i 0).val / 256, by show (i 0).val / 256 < grid0.N; rw [N_0]; omega⟩, rfl⟩
  obtain ⟨e0, e1, e2, e3, e4, e5⟩ := block_indices t
  refine ⟨t, flush0_2 t, ?_⟩
  rw [mem_block]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 32 ≤ (i 1).val ∧ (i 1).val < win0_2.index t (1 : Fin 2) * 32 + 32; omega

/-- The result array after the region: the rows-by-columns product of the two arrays as the region finds them. -/
theorem region_result (c : Dev nD) :
    (dats m 0 c).arrAt 2 cfg0.N = rowsByCols (V m c main_arg0) (V m c main_v5) :=
  (dats m 0 c).arrAt_eq_of_cover 2 (rowsByCols (V m c main_arg0) (V m c main_v5)) (fun t _ => flushed_eq m c t) covered

end Cert.SignProduct.Kernel

end
-- ==== Proof.KernelValue.lean ====
/-
  The first program around its region, and its result.

  Before the region the host computes, from w alone, the scalar mean |w| and the right operand of the product: the
  signs of w, narrowed (the identity on extended reals) and transposed to [8192, 32], so that its entry (k, q) is
  sign (w (q, k)).  The left operand is x itself.  After the region the host multiplies every entry of the product
  by the broadcast scalar.  Entry (p, q) of the result is therefore
  (the sum over k of x (p, k) * sign (w (q, k))) * mean |w|, the common function G, with no finiteness needed.
-/
import proofs.«110860_j31018253812447_2_alg».proof.Proof.KernelBlock
import proofs.«110860_j31018253812447_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

namespace Cert.SignProduct.Kernel

open Cert.KernelIdeal Cert.KernelIdeal.Gen Cert.SignProduct
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The right operand as the region finds it: the transposed, narrowed signs of w. -/
theorem right_array (c : Dev nD) :
    (V m c main_v5 : S8192x32.Idx → EReal)
      = transpose S8192x32 [1, 0] (truncf .bf16 (Host.sign (F := Ideal) (m ((c : Thread nD τ).loc main_arg1))) bitsLt_bf16_f32)
          transposes_S32x8192_S8192x32_1_0 := by
  show StableHlo.after hostOps0 (fun b => m (c, b)) (Proc.devRef .tc main_v5) = _
  after_results

/-- Its entry (k, q) is the sign of w (q, k). -/
theorem right_entry (c : Dev nD) (k : Fin 8192) (q : Fin 32) :
    (V m c main_v5 : S8192x32.Idx → EReal) (ix2 k q)
      = Ideal.sign ((m ((c : Thread nD τ).loc main_arg1) : S32x8192.Idx → EReal) (ix2 q k)) := by
  rw [right_array]
  exact transpose_apply [1, 0] _ transposes_S32x8192_S8192x32_1_0 (ix2 k q) (ix2 q k)
    (fun b => match b with | ⟨0, _⟩ => rfl | ⟨1, _⟩ => rfl)

/-- The scalar as the host leaves it before the region. -/
theorem scale_array (c : Dev nD) :
    (V m c main_v2 : S_.Idx → EReal)
      = Host.divf (Host.reduceAdd (Host.absf (F := Ideal) (m ((c : Thread nD τ).loc main_arg1))) (constant S_ .f32 0x00000000#32) reducesTo_S32x8192_S_d0_1 h_S_)
          (constant S_ .f32 0x48800000#32) := by
  show StableHlo.after hostOps0 (fun b => m (c, b)) (Proc.devRef .tc main_v2) = _
  after_results

/-- Broadcast to the result's shape it is the mean absolute value of w at every index: the sum of |w| over both axes
    from the zero word, divided by the word of 262144. -/
theorem scale_value (w : FVec Ideal S32x8192 .f32) (i : S16384x32.Idx) :
    broadcastInDim S16384x32 ![] bcast_S_S16384x32
      (Host.divf (Host.reduceAdd (Host.absf w) (constant S_ .f32 0x00000000#32) reducesTo_S32x8192_S_d0_1 h_S_)
        (constant S_ .f32 0x48800000#32)) i = meanAbs w := by
  rw [broadcastInDim_apply _ bcast_S_S16384x32 _ i ix0 (fun a => a.elim0)]
  have hsum : Host.reduceAdd (F := Ideal) (Host.absf w) (constant S_ .f32 0x00000000#32) reducesTo_S32x8192_S_d0_1 h_S_ ix0
      = Ideal.ofBits .f32 0x00000000#32 + ∑ j : S32x8192.Idx, max (w j) (-(w j)) := by
    simp only [Host.reduceAdd, Ideal.hostReduceAdd_def]
    exact Ideal.hostReduceAdd_total reducesTo_S32x8192_S_d0_1 (fun b => b.elim0) _ _ ix0
  exact congrArg (fun s => Ideal.div s (Ideal.ofBits .f32 0x48800000#32)) hsum

/-- Row p of x against the signs of row q of w. -/
def signRow (x : S16384x8192.Idx → EReal) (w : S32x8192.Idx → EReal) (p : Fin 16384) (q : Fin 32) : EReal :=
  ∑ k : Fin 8192, x (ix2 p k) * Ideal.sign (w (ix2 q k))

/-- G is that sum times the mean absolute value. -/
theorem G_signRow (x : S16384x8192.Idx → EReal) (w : S32x8192.Idx → EReal) (p : Fin 16384) (q : Fin 32) :
    G x w (ix2 p q) = signRow x w p q * meanAbs w := rfl

/-- Entry (p, q) of the region's product, in terms of the arguments. -/
theorem product_entry (c : Dev nD) (p : Fin 16384) (q : Fin 32) :
    rowsByCols (V m c main_arg0) (V m c main_v5) (ix2 p q)
      = signRow (m ((c : Thread nD τ).loc main_arg0)) (m ((c : Thread nD τ).loc main_arg1)) p q := by
  unfold rowsByCols signRow
  refine Finset.sum_congr rfl fun k _ => ?_
  exact congrArg₂ (fun a b : EReal => a * b) (congrFun (V_main_arg0 m c) (ix2 p k)) (right_entry m c k q)

/-- What the host's last operation leaves in the result: the common function G of the two arguments. -/
theorem tail_result (c : Dev nD) :
    Pipeline.afterTail₀ cfgs (dats m) 0 (V0 m) [hostOps1] c main_v8
      = G (m ((c : Thread nD τ).loc main_arg0)) (m ((c : Thread nD τ).loc main_arg1)) := by
  unfold Pipeline.afterTail₀
  show StableHlo.after hostOps1 _ (Proc.devRef .tc main_v8) = _
  after_results
  have e6 : Pipeline.withArrays (cfgs 0).spec c (V0 m c) (fun w => (dats m 0 c).arrAt w (cfgs 0).N) (Proc.devRef .tc main_v6)
      = rowsByCols (V m c main_arg0) (V m c main_v5) :=
    (Pipeline.withArrays_arr spec0 launch0.win.arr_inj c (V0 m c) _ 2).trans (region_result m c)
  have e2 : Pipeline.withArrays (cfgs 0).spec c (V0 m c) (fun w => (dats m 0 c).arrAt w (cfgs 0).N) (Proc.devRef .tc main_v2)
      = V m c main_v2 :=
    Pipeline.withArrays_of_ne spec0 c (V0 m c) _ main_v2 (by exact (by decide : ∀ w, Pipeline.arrRef spec0 w ≠ main_v2))
  rw [e6, e2, scale_array]
  funext i
  obtain ⟨p, q, rfl⟩ : ∃ (p : Fin 16384) (q : Fin 32), i = ix2 p q := ⟨i 0, i 1, eq_ix2 i⟩
  rw [G_signRow]
  exact congrArg₂ (fun a b : EReal => a * b) (product_entry m c p q) (scale_value _ (ix2 p q))

/-- The first program's run, read: the result at G of the arguments, the arguments unchanged. -/
theorem run : θ_run defs (onTc (τ := τ) (main (F := Ideal))) ⟨m, fun _ => 0, ρ⟩ fun r => ∀ c : Dev nD,
      r.2.mem ((c.tc : Thread nD τ).loc main_v8) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v8 (Pipeline.mem_restRefs_of main_v8 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.SignProduct.Kernel

end
-- ==== Proof.lean ====
/-
  The certificate's five claims.

  Both idealized programs compute, from x of shape [16384, 8192] and w of shape [32, 8192], the array whose entry
  (p, q) is (the sum over k of x (p, k) * sign (w (q, k))) * mean |w|.  The first multiplies x with the transposed
  signs block by block and scales the product afterwards; the second scales the signs first, subtracts and adds back
  the clamped weights, and multiplies once.  Under the precondition every entry is a real, so the added-back
  clamp cancels and the common real factor moves out of the sum: the two results agree entry by entry.
  Nothing was rewritten when the first program was idealized, so that claim is trivial; each program's run
  also shows that it terminates without fault and leaves its arguments unchanged.
-/
import proofs.«110860_j31018253812447_2_alg».proof.Defs
import proofs.«110860_j31018253812447_2_alg».proof.Proof.Gen.Kernel
import proofs.«110860_j31018253812447_2_alg».proof.Proof.Gen.Kernel.Skeleton
import proofs.«110860_j31018253812447_2_alg».proof.Proof.Gen.Kernel.Launch
import proofs.«110860_j31018253812447_2_alg».proof.Proof.Gen.Kernel.Points
import proofs.«110860_j31018253812447_2_alg».proof.Proof.Gen.Kernel.Frame
import proofs.«110860_j31018253812447_2_alg».proof.Proof.Gen.KernelIdeal
import proofs.«110860_j31018253812447_2_alg».proof.Proof.Gen.KernelIdeal.Skeleton
import proofs.«110860_j31018253812447_2_alg».proof.Proof.Gen.KernelIdeal.Launch
import proofs.«110860_j31018253812447_2_alg».proof.Proof.Gen.KernelIdeal.Points
import proofs.«110860_j31018253812447_2_alg».proof.Proof.Gen.KernelIdeal.Frame
import proofs.«110860_j31018253812447_2_alg».proof.Proof.Gen.ReferenceIdeal
import proofs.«110860_j31018253812447_2_alg».proof.Proof.Gen.ReferenceIdeal.Run
import proofs.«110860_j31018253812447_2_alg».proof.Proof.Gen.ReferenceIdeal.Read
import proofs.«110860_j31018253812447_2_alg».proof.Proof.Gen.Pre_finite_inputs
import proofs.«110860_j31018253812447_2_alg».proof.Proof.Finite
import proofs.«110860_j31018253812447_2_alg».proof.Proof.RefValue
import proofs.«110860_j31018253812447_2_alg».proof.Proof.KernelValue
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The host-only program's run, with its result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The two idealized programs end with the same array: the first at G of its arguments for any input, the second at
    G of its arguments when every entry is a real, which the precondition gives. -/
theorem algebraic : Cert.algebraic_KernelIdeal_ReferenceIdeal := by
  intro m ρ m' ρ' hpre hagree
  refine ⟨fun c => Cert.SignProduct.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SignProduct.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.SignProduct.finite_of_pre _ _ (hpre c)
  rw [Cert.ReferenceIdeal.Read.val_main_v10_eq, (hagree c).1, (hagree c).2]
  exact Cert.SignProduct.Reference.result_eq _ _ hx hw

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
